-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x24 : Shape := ⟨2, ![4194304, 24]⟩
abbrev S24 : Shape := ⟨1, ![24]⟩
abbrev S_ : Shape := ⟨0, ![]⟩

class Facts : Prop where
  bcast_S_S4194304x24 : S_.BroadcastsInDim S4194304x24 (![] : Fin 0 → Fin S4194304x24.rank)
  reducesTo_S4194304x24_S_d0_1 : S4194304x24.ReducesTo [0, 1] S_
  h_S_ : 0 < S_.numel
  bcast_S_S24 : S_.BroadcastsInDim S24 (![] : Fin 0 → Fin S24.rank)
  reducesTo_S24_S_d0 : S24.ReducesTo [0] S_

variable [Facts]

def fn {F : FTy → Type} [FloatOps F] (main_arg0 : FVec F S4194304x24 .f32) (main_arg1 : FVec F S24 .f32) : IVec S_ 1 :=
  let main_v0 : FVec F S4194304x24 .f32 := Host.absf main_arg0
  let main_cst : FVec F S_ .f32 := constant S_ .f32 0x7F800000#32
  let main_v1 : FVec F S4194304x24 .f32 := broadcastInDim S4194304x24 ![] bcast_S_S4194304x24 main_cst
  let main_v2 : IVec S4194304x24 1 := cmpf .olt main_v0 main_v1
  let main_c : IVec S_ 1 := constantI S_ 1 1#1
  let main_v3 : IVec S_ 1 := (fun x v => Host.reduce IntOp.andi x v reducesTo_S4194304x24_S_d0_1 h_S_) main_v2 main_c
  let main_v4 : FVec F S24 .f32 := Host.absf main_arg1
  let main_cst_0 : FVec F S_ .f32 := constant S_ .f32 0x7F800000#32
  let main_v5 : FVec F S24 .f32 := broadcastInDim S24 ![] bcast_S_S24 main_cst_0
  let main_v6 : IVec S24 1 := cmpf .olt main_v4 main_v5
  let main_c_1 : IVec S_ 1 := constantI S_ 1 1#1
  let main_v7 : IVec S_ 1 := (fun x v => Host.reduce IntOp.andi x v reducesTo_S24_S_d0 h_S_) main_v6 main_c_1
  let main_v8 : IVec S_ 1 := andi main_v3 main_v7
  main_v8
-- ==== Kernel.lean ====
abbrev S4194304x24 : Shape := ⟨2, ![4194304, 24]⟩
abbrev S24 : Shape := ⟨1, ![24]⟩
abbrev S262144x384 : Shape := ⟨2, ![262144, 384]⟩
abbrev S1x24 : Shape := ⟨2, ![1, 24]⟩
abbrev S16x24 : Shape := ⟨2, ![16, 24]⟩
abbrev S384 : Shape := ⟨1, ![384]⟩
abbrev S1x384 : Shape := ⟨2, ![1, 384]⟩
abbrev S4096x384 : Shape := ⟨2, ![4096, 384]⟩

abbrev nBuf : Space → Nat
  | .hbm => 9
  | .vmem => 5
  | .smem => 0
  | _ => 0

abbrev bufTy : (tb : Table) → Fin (tcTables nBuf tb) → BufTy
  | .hbm, ⟨0, _⟩ => ⟨S4194304x24, .f32⟩
  | .hbm, ⟨1, _⟩ => ⟨S24, .f32⟩
  | .hbm, ⟨2, _⟩ => ⟨S262144x384, .f32⟩
  | .hbm, ⟨3, _⟩ => ⟨S1x24, .f32⟩
  | .hbm, ⟨4, _⟩ => ⟨S16x24, .f32⟩
  | .hbm, ⟨5, _⟩ => ⟨S384, .f32⟩
  | .hbm, ⟨6, _⟩ => ⟨S1x384, .f32⟩
  | .hbm, ⟨7, _⟩ => ⟨S262144x384, .f32⟩
  | .hbm, ⟨8, _⟩ => ⟨S4194304x24, .f32⟩
  | .local _ .vmem, ⟨0, _⟩ => ⟨S4096x384, .f32⟩
  | .local _ .vmem, ⟨1, _⟩ => ⟨S4096x384, .f32⟩
  | .local _ .vmem, ⟨2, _⟩ => ⟨S1x384, .f32⟩
  | .local _ .vmem, ⟨3, _⟩ => ⟨S4096x384, .f32⟩
  | .local _ .vmem, ⟨4, _⟩ => ⟨S4096x384, .f32⟩
  | _, _ => ⟨S4194304x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4194304x24_S262144x384 : S4194304x24.ShapeCasts S262144x384
  shapeCasts_S24_S1x24 : S24.ShapeCasts S1x24
  bcast_S1x24_S16x24_0_1 : S1x24.BroadcastsInDim S16x24 (![0, 1] : Fin 2 → Fin S16x24.rank)
  shapeCasts_S16x24_S384 : S16x24.ShapeCasts S384
  bcast_S384_S1x384_1 : S384.BroadcastsInDim S1x384 (![1] : Fin 1 → Fin S1x384.rank)
  inb_S4096x384_S4096x384_0_0 : ∀ a, (![0, 0] : Fin 2 → Nat) a + S4096x384.size a ≤ S4096x384.size a
  h_S4096x384 : 0 < S4096x384.numel
  shapeCasts_S4096x384_S4096x384 : S4096x384.ShapeCasts S4096x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4096x384 : S1x384.Broadcasts S4096x384
  shapeCasts_S262144x384_S4194304x24 : S262144x384.ShapeCasts S4194304x24
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x384.size a ≤ S262144x384.size a
  hwx0_0 : ∀ i : grid0.Coords, EltTy.bits .f32 = 32 ∨ (Rect.block (s := S262144x384) S4096x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x384.size a ≤ S1x384.size a
  hwx0_1 : ∀ i : grid0.Coords, EltTy.bits .f32 = 32 ∨ (Rect.block (s := S1x384) S1x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x384.size a ≤ S262144x384.size a
  hwx0_2 : ∀ i : grid0.Coords, EltTy.bits .f32 = 32 ∨ (Rect.block (s := S262144x384) S4096x384.size (cc0_transform_2 i) (hinb0_2 i)).WholeWords (EltTy.packing .f32)

variable [Facts₀]

abbrev win0_0 : Pipeline.Window sig grid0 :=
  Pipeline.Window.ofSpec (Memref.whole main_v0) S4096x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4096x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4194304x24 : Shape := ⟨2, ![4194304, 24]⟩
abbrev S24 : Shape := ⟨1, ![24]⟩
abbrev S1x24 : Shape := ⟨2, ![1, 24]⟩

abbrev nBuf : Space → Nat
  | .hbm => 6
  | .vmem => 0
  | .smem => 0
  | _ => 0

abbrev bufTy : (tb : Table) → Fin (tcTables nBuf tb) → BufTy
  | .hbm, ⟨0, _⟩ => ⟨S4194304x24, .f32⟩
  | .hbm, ⟨1, _⟩ => ⟨S24, .f32⟩
  | .hbm, ⟨2, _⟩ => ⟨S1x24, .f32⟩
  | .hbm, ⟨3, _⟩ => ⟨S4194304x24, .f32⟩
  | .hbm, ⟨4, _⟩ => ⟨S4194304x24, .f32⟩
  | .hbm, ⟨5, _⟩ => ⟨S4194304x24, .f32⟩
  | _, _ => ⟨S4194304x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  bcast_S24_S1x24_1 : S24.BroadcastsInDim S1x24 (![1] : Fin 1 → Fin S1x24.rank)
  bcast_S1x24_S4194304x24_0_1 : S1x24.BroadcastsInDim S4194304x24 (![0, 1] : Fin 2 → Fin S4194304x24.rank)

variable [Facts₀]

class Facts : Prop extends Facts₀ where

variable [Facts]
-- ==== Proof.LaneDense.lean ====
/-
  The mathematics of the lane-dense rearrangement, with no program in sight.

  The result wanted is entry (b, q) ↦ cos (x[b, q] + w[q]) over a [4194304, 24] array. The kernel's program instead
  views x row-major as a [262144, 384] matrix (sixteen consecutive rows of 24 laid side by side: 384 = 16 · 24),
  tiles w sixteen times into one row of 384, computes entry (r, c) ↦ cos (X[r, c] + W[0, c]) there, and views the
  result row-major as [4194304, 24] again. Entry (b, q) of x sits at flat position 24 b + q, hence at
  (r, c) = ((24 b + q) / 384, (24 b + q) % 384) of the wide matrix; the tiled row holds w[c % 24] at column c; and
  ((24 b + q) % 384) % 24 = q because 24 divides 384. So both routes give the same entry. Nothing here depends on
  what the numbers are: the statement is about positions only, for any float instance.
-/
import Idealize.ShloMosaic.PureOps.Ideal
import Idealize.ShloMosaic.Lib.ValueIdx
import Idealize.ShloMosaic.Lib.ValueLayout
import Idealize.ShloMosaic.Lib.Pipeline.Value

noncomputable section

namespace Cert.CosShift

open Idealize.ShloMosaic Idealize.ShloMosaic.ValueIdx

variable {F : FTy → Type} [FloatOps F]

/-- The array of angles, [4194304, 24]. -/
abbrev Sx : Shape := ⟨2, ![4194304, 24]⟩
/-- The per-column shifts, [24]. -/
abbrev Sw : Shape := ⟨1, ![24]⟩
/-- The same angles, sixteen rows side by side: [262144, 384]. -/
abbrev Sx2 : Shape := ⟨2, ![262144, 384]⟩
abbrev Sw1 : Shape := ⟨2, ![1, 24]⟩
abbrev Sw2 : Shape := ⟨2, ![16, 24]⟩
abbrev Sw3 : Shape := ⟨1, ![384]⟩
/-- The shifts tiled sixteen times into one row: [1, 384]. -/
abbrev Sw4 : Shape := ⟨2, ![1, 384]⟩

/-- The wanted result: entry (b, q) is cos (x[b, q] + w[q]). -/
def shifted (x : Sx.Idx → Elt F .f32) (w : Sw.Idx → Elt F .f32) : Sx.Idx → Elt F .f32 :=
  fun i => FloatOps.cos (FloatOps.addf (x i) (w (ix1 (⟨(i 1).val, (i 1).isLt⟩ : Fin 24))))

/-- The wide form: entry (r, c) is cos (X[r, c] + W[0, c]). -/
def shiftedWide (X : Sx2.Idx → Elt F .f32) (W : Sw4.Idx → Elt F .f32) : Sx2.Idx → Elt F .f32 :=
  fun j => FloatOps.cos (FloatOps.addf (X j) (W (ix2 (0 : Fin 1) (⟨(j 1).val, (j 1).isLt⟩ : Fin 384))))

/-- The tiled row at column c holds w[c % 24]: the row is w as [1, 24], repeated down sixteen rows, read row-major
    as one vector of 384, and that vector as a [1, 384] row. -/
theorem tiled_apply {α : Type} (w : Sw.Idx → α) (h1 : Sw.ShapeCasts Sw1)
    (h2 : Sw1.BroadcastsInDim Sw2 (![0, 1] : Fin 2 → Fin Sw2.rank)) (h3 : Sw2.ShapeCasts Sw3)
    (h4 : Sw3.BroadcastsInDim Sw4 (![1] : Fin 1 → Fin Sw4.rank)) (c : Fin 384) :
    broadcastInDim Sw4 ![1] h4 (shapeCast Sw3 (broadcastInDim Sw2 ![0, 1] h2 (shapeCast Sw1 w h1)) h3) (ix2 (0 : Fin 1) c)
      = w (ix1 (⟨c.val % 24, Nat.mod_lt _ (by decide)⟩ : Fin 24)) := by
  have hc := c.isLt
  refine (broadcastInDim_apply _ h4 _ (ix2 (0 : Fin 1) c) (ix1 c) (fun a => match a with
    | ⟨0, _⟩ => by show c.val = if (384 : Nat) = 1 then 0 else c.val; rw [if_neg (by decide)])).trans ?_
  refine (shapeCast_apply _ h3 (ix1 c) (ix2 (⟨c.val / 24, by omega⟩ : Fin 16) (⟨c.val % 24, Nat.mod_lt _ (by decide)⟩ : Fin 24)) (by
    rw [Shape.rowMajor_val_two, Shape.rowMajor_val_one]
    show c.val / 24 * 24 + c.val % 24 = c.val
    omega)).trans ?_
  refine (broadcastInDim_apply _ h2 _ (ix2 (⟨c.val / 24, by omega⟩ : Fin 16) (⟨c.val % 24, Nat.mod_lt _ (by decide)⟩ : Fin 24))
    (ix2 (0 : Fin 1) (⟨c.val % 24, Nat.mod_lt _ (by decide)⟩ : Fin 24)) (fun a => match a with
    | ⟨0, _⟩ => by show 0 = if (1 : Nat) = 1 then 0 else c.val / 24; rw [if_pos rfl]
    | ⟨1, _⟩ => by show c.val % 24 = if (24 : Nat) = 1 then 0 else c.val % 24; rw [if_neg (by decide)])).trans ?_
  exact shapeCast_a_1a_apply w h1 0 _

/-- The wide computation, viewed row-major as [4194304, 24] again, is the wanted result. -/
theorem wide_eq_shifted (x : Sx.Idx → Elt F .f32) (w : Sw.Idx → Elt F .f32) (hx : Sx.ShapeCasts Sx2) (h1 : Sw.ShapeCasts Sw1)
    (h2 : Sw1.BroadcastsInDim Sw2 (![0, 1] : Fin 2 → Fin Sw2.rank)) (h3 : Sw2.ShapeCasts Sw3)
    (h4 : Sw3.BroadcastsInDim Sw4 (![1] : Fin 1 → Fin Sw4.rank)) (hy : Sx2.ShapeCasts Sx) :
    shapeCast Sx (shiftedWide (F := F) (shapeCast Sx2 x hx)
        (broadcastInDim Sw4 ![1] h4 (shapeCast Sw3 (broadcastInDim Sw2 ![0, 1] h2 (shapeCast Sw1 w h1)) h3))) hy
      = shifted x w := by
  funext i
  obtain ⟨b, q, rfl⟩ : ∃ (b : Fin 4194304) (q : Fin 24), i = ix2 b q := ⟨i 0, i 1, eq_ix2 i⟩
  have hb := b.isLt
  have hq := q.isLt
  have hr : (b.val * 24 + q.val) / 384 < 262144 := by omega
  have hc : (b.val * 24 + q.val) % 384 < 384 := Nat.mod_lt _ (by decide)
  -- entry (b, q) sits at (r, c) of the wide matrix
  refine (shapeCast_apply _ hy (ix2 b q) (ix2 (⟨(b.val * 24 + q.val) / 384, hr⟩ : Fin 262144) (⟨(b.val * 24 + q.val) % 384, hc⟩ : Fin 384)) (by
    rw [Shape.rowMajor_val_two, Shape.rowMajor_val_two]
    show (b.val * 24 + q.val) / 384 * 384 + (b.val * 24 + q.val) % 384 = b.val * 24 + q.val
    omega)).trans ?_
  -- and the wide matrix holds x[b, q] there
  have e1 : shapeCast Sx2 x hx (ix2 (⟨(b.val * 24 + q.val) / 384, hr⟩ : Fin 262144) (⟨(b.val * 24 + q.val) % 384, hc⟩ : Fin 384)) = x (ix2 b q) :=
    shapeCast_apply x hx _ _ (by
      rw [Shape.rowMajor_val_two, Shape.rowMajor_val_two]
      show b.val * 24 + q.val = (b.val * 24 + q.val) / 384 * 384 + (b.val * 24 + q.val) % 384
      omega)
  -- the tiled row holds w[q] at column c, since 24 divides 384
  have e3 : (⟨(b.val * 24 + q.val) % 384 % 24, Nat.mod_lt _ (by decide)⟩ : Fin 24) = q := Fin.ext (by
    show (b.val * 24 + q.val) % 384 % 24 = q.val
    omega)
  have e2 := tiled_apply w h1 h2 h3 h4 (⟨(b.val * 24 + q.val) % 384, hc⟩ : Fin 384)
  rw [e3] at e2
  show FloatOps.cos (FloatOps.addf (shapeCast Sx2 x hx (ix2 (⟨(b.val * 24 + q.val) / 384, hr⟩ : Fin 262144) (⟨(b.val * 24 + q.val) % 384, hc⟩ : Fin 384)))
      (broadcastInDim Sw4 ![1] h4 (shapeCast Sw3 (broadcastInDim Sw2 ![0, 1] h2 (shapeCast Sw1 w h1)) h3) (ix2 (0 : Fin 1) (⟨(b.val * 24 + q.val) % 384, hc⟩ : Fin 384))))
    = FloatOps.cos (FloatOps.addf (x (ix2 b q)) (w (ix1 q)))
  rw [e1, e2]

end Cert.CosShift

end
-- ==== Proof.Region.lean ====
/-
  What the one region of the idealized kernel's program leaves in its output array.

  The region walks the [262144, 384] matrix in 64 blocks of 4096 rows. At each block the body loads the 4096 rows and
  the one tiled row of shifts, adds the row to every row of the block, takes the cosine, and stores the block whole.
  So each block written back is the corresponding 4096 rows of ONE function of the two arrays the region found,
  entry (r, c) ↦ cos (X[r, c] + W[0, c]); the 64 blocks cover every row (row r lies in block r / 4096); hence the
  output array ends holding that function.
-/
import proofs.«115990_j87428354277458_2_alg».proof.Proof.Gen.KernelIdeal.Frame
import proofs.«115990_j87428354277458_2_alg».proof.Proof.LaneDense
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.CosShift

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- The body's stored value at (p, c) of its block: the cosine of the block's entry plus the shift row's entry at
    column c. (The two casts to the same shape change nothing; the row is repeated down the block.) -/
theorem body_apply (x0 : Vec F S4096x384 .f32) (x1 : Vec F S1x384 .f32) (p : Fin 4096) (c : Fin 384) :
    k0_pay1 x0 x1 (ix2 p c) = FloatOps.cos (FloatOps.addf (x0 (ix2 p c)) (x1 (ix2 (0 : Fin 1) c))) := by
  unfold k0_pay1
  show FloatOps.cos (FloatOps.addf (shapeCast S4096x384 x0 shapeCasts_S4096x384_S4096x384 (ix2 p c))
    (broadcastTo S4096x384 (shapeCast S1x384 x1 shapeCasts_S1x384_S1x384) broadcasts_S1x384_S4096x384 (ix2 p c))) = _
  rw [shapeCast_self, shapeCast_self, broadcastTo_1b_ab_apply]

/-- The printed index maps over the 64 grid points: the block of angles and the block of results both sit at block
    row t, column 0; the shift row is always block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the wide function of the two arrays the region found. -/
theorem flushed_eq (c : Dev nD) (t : Fin cfg0.N) :
    (dats m 0 c).flushed 2 t
      = ((cfg0.win 2).blk t).view.read (Elt F) (shiftedWide (F := F) (V m c main_v0) (V m c main_v4)) := by
  show (cfg0.win 2).cut (grid0.coords t) ((dats m 0 c).after 2 t) = _
  rw [after0_2]
  unfold out0_2
  rw [View.canon_unit_zero zero_offsets]
  simp only [View.ld_unit_zero (S := S4096x384) zero_offsets, View.ld_unit_zero (S := S1x384) zero_offsets]
  obtain ⟨e0, e1, e2, e3, e4, e5⟩ := index_maps t
  funext j
  obtain ⟨p, q, rfl⟩ : ∃ (p : Fin 4096) (q : Fin 384), j = ix2 p q := ⟨j 0, j 1, eq_ix2 j⟩
  refine (body_apply (iblk m c 0 t) (iblk m c 1 t) p q).trans ?_
  show FloatOps.cos (FloatOps.addf (V m c main_v0 (((cfg0.win 0).blk t).view.emb (ix2 p q)))
      (V m c main_v4 (((cfg0.win 1).blk t).view.emb (ix2 (0 : Fin 1) q))))
    = FloatOps.cos (FloatOps.addf (V m c main_v0 (((cfg0.win 2).blk t).view.emb (ix2 p q)))
      (V m c main_v4 (ix2 (0 : Fin 1) (⟨((((cfg0.win 2).blk t).view.emb (ix2 p q)) 1).val, ((((cfg0.win 2).blk t).view.emb (ix2 p q)) 1).isLt⟩ : Fin 384))))
  have hp := p.isLt
  have hq := q.isLt
  have h0 : ((cfg0.win 0).blk t).view.emb (ix2 p q) = ((cfg0.win 2).blk t).view.emb (ix2 p q) := by
    funext a; apply Fin.ext
    match a with
    | ⟨0, _⟩ => show win0_0.index t (0 : Fin 2) * 4096 + 1 * p.val = win0_2.index t (0 : Fin 2) * 4096 + 1 * p.val; omega
    | ⟨1, _⟩ => show win0_0.index t (1 : Fin 2) * 384 + 1 * q.val = win0_2.index t (1 : Fin 2) * 384 + 1 * q.val; omega
  have h1 : ((cfg0.win 1).blk t).view.emb (ix2 (0 : Fin 1) q)
      = ix2 (0 : Fin 1) (⟨((((cfg0.win 2).blk t).view.emb (ix2 p q)) 1).val, ((((cfg0.win 2).blk t).view.emb (ix2 p q)) 1).isLt⟩ : Fin 384) := by
    funext a; apply Fin.ext
    match a with
    | ⟨0, _⟩ => show win0_1.index t (0 : Fin 2) * 1 + 1 * 0 = 0; omega
    | ⟨1, _⟩ => show win0_1.index t (1 : Fin 2) * 384 + 1 * q.val = win0_2.index t (1 : Fin 2) * 384 + 1 * q.val; omega
  rw [h0, h1]

/-- An index of the output array is in point t's block iff each coordinate is in the block's range on its axis. -/
theorem mem_blk (t : Fin cfg0.N) (i : S262144x384.Idx) :
    i ∈ ((cfg0.win 2).blk t).view.set ↔ ∀ a : Fin 2, win0_2.index t a * S4096x384.size a ≤ (i a).val ∧ (i a).val < win0_2.index t a * S4096x384.size a + S4096x384.size a := by
  show i ∈ ((View.whole main_v5).slice (win0_2.rect t)).set ↔ _
  rw [View.set_slice_whole, Rect.mem_set_unit]
  exact Iff.rfl

/-- Every row is in some block: row r is in block r / 4096. -/
theorem covered (i : S262144x384.Idx) :
    ∃ t : Fin cfg0.N, (cfg0.win 2).flush t = true ∧ i ∈ ((cfg0.win 2).blk t).view.set := by
  have hi0 : (i 0).val < 262144 := (i 0).isLt
  have hi1 : (i 1).val < 384 := (i 1).isLt
  have hN : cfg0.N = 64 := N_0
  refine ⟨⟨(i 0).val / 4096, by rw [hN]; omega⟩, flush0_2 _, ?_⟩
  rw [mem_blk]
  obtain ⟨-, -, -, -, e4, e5⟩ := index_maps ⟨(i 0).val / 4096, by rw [hN]; omega⟩
  intro a
  match a with
  | ⟨0, _⟩ =>
    show win0_2.index _ (0 : Fin 2) * 4096 ≤ (i 0).val ∧ (i 0).val < win0_2.index _ (0 : Fin 2) * 4096 + 4096
    rw [e4]; show (i 0).val / 4096 * 4096 ≤ (i 0).val ∧ (i 0).val < (i 0).val / 4096 * 4096 + 4096; omega
  | ⟨1, _⟩ =>
    show win0_2.index _ (1 : Fin 2) * 384 ≤ (i 1).val ∧ (i 1).val < win0_2.index _ (1 : Fin 2) * 384 + 384
    rw [e5]; omega

/-- The output array after the region: the wide function of the two arrays the region found. -/
theorem final (c : Dev nD) :
    (dats m 0 c).arrAt 2 cfg0.N = shiftedWide (F := F) (V m c main_v0) (V m c main_v4) :=
  (dats m 0 c).arrAt_eq_of_cover 2 _ (fun t _ => flushed_eq m c t) covered

end Cert.KernelIdeal.Region

end
-- ==== Proof.HostSide.lean ====
/-
  The host lines around the region of the idealized kernel's program, read as values.

  Before the region: the angles are viewed row-major as the [262144, 384] matrix, and the shifts are made into the
  tiled [1, 384] row (as [1, 24], repeated down sixteen rows, read row-major as 384 entries, as one row). After the
  region: its output matrix is viewed row-major as [4194304, 24], and that is the program's result.
-/
import proofs.«115990_j87428354277458_2_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.HostSide

open Cert.KernelIdeal Cert.KernelIdeal.Gen

variable {F : FTy → Type} [FloatOps F]
variable (m : (ℓ : Loc nD τ sig) → Buf (Elt F) ℓ) (ρ : Dev nD → PrngReg)

/-- The region finds the angles viewed row-major as the wide matrix. -/
theorem found_angles (c : Dev nD) :
    (V m c main_v0 : S262144x384.Idx → Elt F .f32)
      = shapeCast S262144x384 (m ((c : Thread nD τ).loc main_arg0) : S4194304x24.Idx → Elt F .f32) shapeCasts_S4194304x24_S262144x384 := by
  show StableHlo.after hostOps0 (fun b => m (c, b)) (Proc.devRef .tc main_v0) = _
  after_results
  rfl

/-- The region finds the shifts tiled sixteen times into one row. -/
theorem found_shifts (c : Dev nD) :
    (V m c main_v4 : S1x384.Idx → Elt F .f32)
      = broadcastInDim S1x384 ![1] bcast_S384_S1x384_1
          (shapeCast S384 (broadcastInDim S16x24 ![0, 1] bcast_S1x24_S16x24_0_1
            (shapeCast S1x24 (m ((c : Thread nD τ).loc main_arg1) : S24.Idx → Elt F .f32) shapeCasts_S24_S1x24)) shapeCasts_S16x24_S384) := by
  show StableHlo.after hostOps0 (fun b => m (c, b)) (Proc.devRef .tc main_v4) = _
  after_results
  rfl

/-- The program's result is the region's output matrix viewed row-major as [4194304, 24]. -/
theorem result_eq (c : Dev nD) :
    (Pipeline.afterTail₀ cfgs (dats m) 0 (V0 m) [hostOps1] c main_v6 : S4194304x24.Idx → Elt F .f32)
      = shapeCast S4194304x24 ((dats m 0 c).arrAt 2 cfg0.N : S262144x384.Idx → Elt F .f32) shapeCasts_S262144x384_S4194304x24 := by
  unfold Pipeline.afterTail₀
  show StableHlo.after hostOps1 _ (Proc.devRef .tc main_v6) = _
  after_results
  exact congrArg (fun A : S262144x384.Idx → Elt F .f32 => shapeCast S4194304x24 A shapeCasts_S262144x384_S4194304x24)
    (Pipeline.withArrays_arr spec0 launch0.win.arr_inj c (V0 m c) (fun w => (dats m 0 c).arrAt w cfg0.N) 2)

end Cert.KernelIdeal.HostSide

end
-- ==== Proof.KernelValue.lean ====
/-
  The idealized kernel's program, run: its result array ends at entry (b, q) ↦ cos (x[b, q] + w[q]) of its two
  arguments, which end unchanged. The region leaves the wide function of what it found; what it found is the wide
  view of x and the tiled row of w; the result is the row-major view of the region's output; and the wide
  computation viewed that way is the wanted result (the positions' arithmetic, 384 = 16 · 24).
-/
import proofs.«115990_j87428354277458_2_alg».proof.Proof.Region
import proofs.«115990_j87428354277458_2_alg».proof.Proof.HostSide

noncomputable section

open Idealize.ShloMosaic Idealize.ShloMosaic.TcCoe Idealize.SL.Sem

namespace Cert.KernelIdeal.KernelValue

open Cert.KernelIdeal Cert.KernelIdeal.Gen Cert.CosShift

variable {F : FTy → Type} [FloatOps F]
variable (m : (ℓ : Loc nD τ sig) → Buf (Elt F) ℓ) (ρ : Dev nD → PrngReg)

/-- The program's result, as a function of its arguments. -/
theorem result_eq (c : Dev nD) :
    (Pipeline.afterTail₀ cfgs (dats m) 0 (V0 m) [hostOps1] c main_v6 : S4194304x24.Idx → Elt F .f32)
      = shifted (F := F) (m ((c : Thread nD τ).loc main_arg0)) (m ((c : Thread nD τ).loc main_arg1)) := by
  rw [HostSide.result_eq, Region.final, HostSide.found_angles, HostSide.found_shifts]
  exact wide_eq_shifted _ _ _ _ _ _ _ _

/-- Every weakly fair execution terminates with the result array at the wanted function of the arguments and the
    arguments unchanged. -/
theorem run : θ_run defs (onTc (τ := τ) (main (F := F))) ⟨m, fun _ => 0, ρ⟩ fun r => ∀ c : Dev nD,
      r.2.mem ((c.tc : Thread nD τ).loc main_v6) = shifted (F := F) (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v6 (Pipeline.mem_restRefs_of main_v6 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KernelValue

end
-- ==== Proof.RefValue.lean ====
/-
  The reference program's result, read entry by entry: it repeats w along the rows, adds it to x and takes the
  cosine, so entry (b, q) is cos (x[b, q] + w[q]) — the wanted result as it stands. On the extended reals the
  host's cosine and the vector unit's are one function.
-/
import proofs.«115990_j87428354277458_2_alg».proof.Defs
import proofs.«115990_j87428354277458_2_alg».proof.Proof.Gen.ReferenceIdeal.Read
import proofs.«115990_j87428354277458_2_alg».proof.Proof.LaneDense
import Idealize.ShloMosaic.Lib.ValueIdx

noncomputable section

namespace Cert.ReferenceIdeal.RefValue

open Cert.ReferenceIdeal Cert.ReferenceIdeal.Read Cert.CosShift
open Idealize.ShloMosaic Idealize.ShloMosaic.ValueIdx

/-- The two broadcasts read w at the entry's column. -/
theorem column_index (i : S4194304x24.Idx) :
    idx_main_v0 (idx_main_v1 i) = ix1 (⟨(i 1).val, (i 1).isLt⟩ : Fin 24) :=
  funext fun a => Fin.ext (by match a with | ⟨0, _⟩ => rfl)

/-- The reference's result is the wanted one. -/
theorem result_eq (x : (⟨S4194304x24, .f32⟩ : BufTy).Contents (Elt Ideal)) (w : (⟨S24, .f32⟩ : BufTy).Contents (Elt Ideal)) :
    val_main_v3 (F := Ideal) x w = shifted (F := Ideal) x w := by
  funext i
  rw [val_main_v3_apply, val_main_v2_apply, val_main_v1_apply, val_main_v0_apply, column_index]
  rfl

end Cert.ReferenceIdeal.RefValue

end
-- ==== Proof.lean ====
/-
  The kernel computes cos (x + w), w added to every row of x, on a lane-dense view: x read row-major as a
  [262144, 384] matrix (sixteen rows of 24 side by side), w tiled sixteen times into a row of 384, the sum and cosine
  taken there in 64 blocks of 4096 rows, and the result read row-major as [4194304, 24] again. The reference adds w
  to every row of x as it stands and takes the cosine. On the extended reals both are entry (b, q) ↦
  cos (x[b, q] + w[q]): the only content is where an entry sits (flat position 24 b + q, column (24 b + q) % 384 of
  the wide matrix, and that column modulo 24 is q since 24 divides 384); no law of arithmetic is used, so the inputs'
  finiteness is never opened. The idealization rewrote nothing, so there is nothing to preserve.
-/
import proofs.«115990_j87428354277458_2_alg».proof.Defs
import proofs.«115990_j87428354277458_2_alg».proof.Proof.Gen.Kernel
import proofs.«115990_j87428354277458_2_alg».proof.Proof.Gen.Kernel.Frame
import proofs.«115990_j87428354277458_2_alg».proof.Proof.Gen.KernelIdeal
import proofs.«115990_j87428354277458_2_alg».proof.Proof.Gen.KernelIdeal.Frame
import proofs.«115990_j87428354277458_2_alg».proof.Proof.Gen.ReferenceIdeal
import proofs.«115990_j87428354277458_2_alg».proof.Proof.Gen.ReferenceIdeal.Run
import proofs.«115990_j87428354277458_2_alg».proof.Proof.Gen.ReferenceIdeal.Read
import proofs.«115990_j87428354277458_2_alg».proof.Proof.Gen.Pre_finite_inputs
import proofs.«115990_j87428354277458_2_alg».proof.Proof.KernelValue
import proofs.«115990_j87428354277458_2_alg».proof.Proof.RefValue
import Idealize.ShloMosaic.Adequacy
import Idealize.ShloMosaic.Init

noncomputable section

namespace Cert.Proof

open Idealize.ShloMosaic Idealize.SL.Sem

/-- The printed kernel's program runs and leaves its arguments alone. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- And the reference: its run, the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end with entry (b, q) at cos (x[b, q] + w[q]) of the arguments they share. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.KernelValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
